-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x1 : Shape := ⟨2, ![8192, 1]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1 : S_.BroadcastsInDim S8192x1 (![] : Fin 0 → Fin S8192x1.rank)
  reducesTo_S8192x1_S_d0_1 : S8192x1.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg11 : FVec F S512x512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  main_v58

def fn_part2 {F : FTy → Type} [FloatOps F] (main_arg7 : FVec F S512 .f32) (main_arg8 : FVec F S512x512 .f32) (main_arg9 : FVec F S512x512 .f32) (main_arg10 : FVec F S512 .f32) (main_arg11 : FVec F S512x512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_v48 main_v49 main_v50

def fn_part1 {F : FTy → Type} [FloatOps F] (main_arg4 : FVec F S512 .f32) (main_arg5 : FVec F S512x512 .f32) (main_arg6 : FVec F S512x512 .f32) (main_arg7 : FVec F S512 .f32) (main_arg8 : FVec F S512x512 .f32) (main_arg9 : FVec F S512x512 .f32) (main_arg10 : FVec F S512 .f32) (main_arg11 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8192x512 .f32) (main_arg1 : FVec F S8192x512 .f32) (main_arg2 : FVec F S8192x1 .f32) (main_arg3 : FVec F S512x512 .f32) (main_arg4 : FVec F S512 .f32) (main_arg5 : FVec F S512x512 .f32) (main_arg6 : FVec F S512x512 .f32) (main_arg7 : FVec F S512 .f32) (main_arg8 : FVec F S512x512 .f32) (main_arg9 : FVec F S512x512 .f32) (main_arg10 : FVec F S512 .f32) (main_arg11 : FVec F S512x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x1 .f32 := Host.absf main_arg2
  let main_cst_2 : FVec F S_ .f32 := constant S_ .f32 0x7F800000#32
  let main_v10 : FVec F S8192x1 .f32 := broadcastInDim S8192x1 ![] bcast_S_S8192x1 main_cst_2
  let main_v11 : IVec S8192x1 1 := cmpf .olt main_v9 main_v10
  let main_c_3 : IVec S_ 1 := constantI S_ 1 1#1
  let main_v12 : IVec S_ 1 := (fun x v => Host.reduce IntOp.andi x v reducesTo_S8192x1_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_v13 main_v16
-- ==== Kernel.lean ====
abbrev S8192x512 : Shape := ⟨2, ![8192, 512]⟩
abbrev S8192x1 : Shape := ⟨2, ![8192, 1]⟩
abbrev S512x512 : Shape := ⟨2, ![512, 512]⟩
abbrev S512 : Shape := ⟨1, ![512]⟩
abbrev S512x1536 : Shape := ⟨2, ![512, 1536]⟩
abbrev S1536 : Shape := ⟨1, ![1536]⟩
abbrev S1x1536 : Shape := ⟨2, ![1, 1536]⟩
abbrev S512x1 : Shape := ⟨2, ![512, 1]⟩
abbrev S1x512 : Shape := ⟨2, ![1, 512]⟩

abbrev nBuf : Space → Nat
  | .hbm => 19
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512x1536, .f32⟩
  | .hbm, ⟨13, _⟩ => ⟨S512x1536, .bf16⟩
  | .hbm, ⟨14, _⟩ => ⟨S512x1536, .f32⟩
  | .hbm, ⟨15, _⟩ => ⟨S512x1536, .bf16⟩
  | .hbm, ⟨16, _⟩ => ⟨S1536, .f32⟩
  | .hbm, ⟨17, _⟩ => ⟨S1x1536, .f32⟩
  | .hbm, ⟨18, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1, .f32⟩
  | .local _ .vmem, ⟨5, _⟩ => ⟨S512x1, .f32⟩
  | .local _ .vmem, ⟨6, _⟩ => ⟨S512x1536, .bf16⟩
  | .local _ .vmem, ⟨7, _⟩ => ⟨S512x1536, .bf16⟩
  | .local _ .vmem, ⟨8, _⟩ => ⟨S1x1536, .f32⟩
  | .local _ .vmem, ⟨9, _⟩ => ⟨S512x512, .f32⟩
  | .local _ .vmem, ⟨10, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S512x512_S512x512_S512x512_S512x1536_d1 : Shape.Concatenates [S512x512, S512x512, S512x512] S512x1536 1
  bitsLt_bf16_f32 : FTy.bits .bf16 < FTy.bits .f32
  concatenates_S512_S512_S512_S1536_d0 : Shape.Concatenates [S512, S512, S512] S1536 0
  shapeCasts_S1536_S1x1536 : S1536.ShapeCasts S1x1536
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  slices_S1x1536_o0_0_S1x512 : S1x1536.Slices ![0, 0] S1x512
  slices_S1x1536_o0_512_S1x512 : S1x1536.Slices ![0, 512] S1x512
  slices_S1x1536_o0_1024_S1x512 : S1x1536.Slices ![0, 1024] S1x512
  broadcasts_S1x512_S512x512 : S1x512.Broadcasts S512x512
  broadcasts_S512x1_S512x512 : S512x1.Broadcasts S512x512
  dot_S512x512_S512x1536_S512x1536_1_0_0_1_n_n_wf : DotDims.WF S512x512 S512x1536 S512x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S512x1536.size a
  hwx0_3 : ∀ i : grid0.Coords, EltTy.bits .bf16 = 32 ∨ (Rect.block (s := S512x1536) S512x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1536.size a ≤ S512x1536.size a
  hwx0_4 : ∀ i : grid0.Coords, EltTy.bits .bf16 = 32 ∨ (Rect.block (s := S512x1536) S512x1536.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1536.size a ≤ S1x1536.size a
  hwx0_5 : ∀ i : grid0.Coords, EltTy.bits .f32 = 32 ∨ (Rect.block (s := S1x1536) S1x1536.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S8192x512.size a
  hwx0_6 : ∀ i : grid0.Coords, EltTy.bits .f32 = 32 ∨ (Rect.block (s := S8192x512) S512x512.size (cc0_transform_6 i) (hinb0_6 i)).WholeWords (EltTy.packing .f32)

variable [Facts₀]

def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x1 : Shape := ⟨2, ![8192, 1]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S8192x512, .f32⟩
  | .hbm, ⟨13, _⟩ => ⟨S1x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S1x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S1x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S_, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S8192x1_S8192x512_0_1 : S8192x1.BroadcastsInDim S8192x512 (![0, 1] : Fin 2 → Fin S8192x512.rank)
  dot_S8192x512_S512x512_S8192x512_1_0_0_1_n_n_wf : DotDims.WF S8192x512 S512x512 S8192x512 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.KernelRegion.lean ====
/-
  The region of the program in namespace Cert.Kernel, at any float instance: @main is six host operations (three
  concatenations, two changes of format, one reshape) and then ONE pipelined call over a grid of 16 points. At point t
  the body loads its six input blocks whole — rows 512 t … 512 t + 511 of x, of h and of the attention column, and the
  two fused weight matrices and the fused bias row, whose block index never moves —, computes, and stores ONE whole
  512 x 512 block of the output. So every weakly fair execution terminates without a fault, the output array ends at
  the blocks the body left (`outBlock` of the input blocks, point by point), and no argument array is written.
-/
import proofs.«177072_j69569880261404_2_alg».proof.Proof.Gen.Kernel.Launch
import proofs.«177072_j69569880261404_2_alg».proof.Proof.Gen.Kernel.Skeleton
import proofs.«177072_j69569880261404_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- What core `c`'s buffers hold when the call is entered: the launch contents after the six host operations. -/
abbrev V (c : Dev nD) (b : Ref sig .tc) : Buf (Elt F) ((c : Thread nD τ).loc b) :=
  StableHlo.after hostOps0 (fun b => m (c, b)) b

/-- None of the six host operations allocates. -/
theorem hostOps0_fresh : (hostOps0 : List (HloOp τ sig (Elt F))).Forall fun op => op.fresh = ∅ := by
  simp only [List.Forall]; repeat' constructor

/-- @main is the six host operations and then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the pipeline fetched it there
    or not (where it did not, the block index has not moved since the fetch). -/
theorem found0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem found5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

/-- From a run that ends with every window's array at what the proof data computes and every other unscoped buffer as
    the call found it: the three staged arguments are inputs (never written back), the other nine bypass the call, and
    no host operation writes an argument. -/
theorem kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩

/-- So a run that ends there leaves the twelve argument arrays unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => kept m dats hA r h c) h

/-! ## The body's accesses: each buffer whole -/

abbrev whole512x512 : Rect S512x512 := Rect.unit (s := S512x512) ![0, 0] S512x512.size inb_S512x512_S512x512_0_0
abbrev whole512x1 : Rect S512x1 := Rect.unit (s := S512x1) ![0, 0] S512x1.size inb_S512x1_S512x1_0_0
abbrev whole512x1536 : Rect S512x1536 := Rect.unit (s := S512x1536) ![0, 0] S512x1536.size inb_S512x1536_S512x1536_0_0
abbrev whole1x1536 : Rect S1x1536 := Rect.unit (s := S1x1536) ![0, 0] S1x1536.size inb_S1x1536_S1x1536_0_0

/-- What the body leaves in the output window's buffer, from the six input blocks: its one store, of the whole block. -/
def outBlock (x0 : Vec F S512x512 .f32) (x1 : Vec F S512x512 .f32) (x2 : Vec F S512x1 .f32) (x3 : Vec F S512x1536 .bf16)
    (x4 : Vec F S512x1536 .bf16) (x5 : Vec F S1x1536 .f32) : Vec F S512x512 .f32 :=
  View.canon [⟨whole512x512, k0_pay1 (View.ld x0 whole512x512) (View.ld x1 whole512x512) (View.ld x2 whole512x1)
    (View.ld x3 whole512x1536) (View.ld x4 whole512x1536) (View.ld x5 whole1x1536)⟩]

/-- The one store covers the buffer. -/
theorem outBlock_cover (p0 : Vec F S512x512 .f32) (y : S512x512.Idx) :
    ∃ pc ∈ ([⟨whole512x512, p0⟩] : List (View.Piece (Elt F) S512x512 .f32)), y ∈ pc.1.set :=
  View.cover_of_tiled [⟨whole512x512, p0⟩] S512x512.size (by rfl) y

/-! ## The body's triple -/

set_option maxHeartbeats 1000000 in
/-- The body on whole staging memrefs, the six inputs' at contents `x0 … x5` and the output's at anything, runs to the
    continuation with the inputs' as they were and the output's at `outBlock` of them. -/
theorem sound_kernel (c : Dev nD) (E : Set ℕ) (i : grid0.Coords)
    (arg1 : Memref sig .tc .vmem S512x512 .f32) (harg1 : arg1.IsWhole) (arg2 : Memref sig .tc .vmem S512x512 .f32) (harg2 : arg2.IsWhole)
    (arg3 : Memref sig .tc .vmem S512x1 .f32) (harg3 : arg3.IsWhole) (arg4 : Memref sig .tc .vmem S512x1536 .bf16) (harg4 : arg4.IsWhole)
    (arg5 : Memref sig .tc .vmem S512x1536 .bf16) (harg5 : arg5.IsWhole) (arg6 : Memref sig .tc .vmem S1x1536 .f32) (harg6 : arg6.IsWhole)
    (arg7 : Memref sig .tc .vmem S512x512 .f32) (harg7 : arg7.IsWhole)
    (x0 : Vec F S512x512 .f32) (x1 : Vec F S512x512 .f32) (x2 : Vec F S512x1 .f32) (x3 : Vec F S512x1536 .bf16)
    (x4 : Vec F S512x1536 .bf16) (x5 : Vec F S1x1536 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlock x0 x1 x2 x3 x4 x5)) -∗ K ⟨⟩))
      ⊢ wp frame (wpE (defs₀ (F := F)) Variants.none c none) E
          (cc0__augru_kernel i arg1 harg1 arg2 harg2 arg3 harg3 arg4 harg4 arg5 harg5 arg6 harg6 arg7 harg7) K := by
  simp only [cc0__augru_kernel_eq_skeleton]; unfold cc0__augru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (outBlock_cover _)

/-! ## The pipeline's proof data -/

/-- On core `c`: the arrays as the call finds them; after the body at point `t` each input's buffer still at its
    block and the output's at `outBlock` of the six input blocks; nothing carried between points beyond the scoped
    rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outBlock (iblk m c 0 t) (iblk m c 1 t) (iblk m c 2 t) (iblk m c 3 t) (iblk m c 4 t) (iblk m c 5 t) := by dsimp only [dats]

theorem found0 (c : Dev nD) (t : Fin cfg0.N) (d) : (dats m 0 c).before 0 t d = iblk m c 0 t :=
  found0_of m (dats m 0 c) (A_eq m c 0) (after0 m c) t d
theorem found1 (c : Dev nD) (t : Fin cfg0.N) (d) : (dats m 0 c).before 1 t d = iblk m c 1 t :=
  found1_of m (dats m 0 c) (A_eq m c 1) (after1 m c) t d
theorem found2 (c : Dev nD) (t : Fin cfg0.N) (d) : (dats m 0 c).before 2 t d = iblk m c 2 t :=
  found2_of m (dats m 0 c) (A_eq m c 2) (after2 m c) t d
theorem found3 (c : Dev nD) (t : Fin cfg0.N) (d) : (dats m 0 c).before 3 t d = iblk m c 3 t :=
  found3_of m (dats m 0 c) (A_eq m c 3) (after3 m c) t d
theorem found4 (c : Dev nD) (t : Fin cfg0.N) (d) : (dats m 0 c).before 4 t d = iblk m c 4 t :=
  found4_of m (dats m 0 c) (A_eq m c 4) (after4 m c) t d
theorem found5 (c : Dev nD) (t : Fin cfg0.N) (d) : (dats m 0 c).before 5 t d = iblk m c 5 t :=
  found5_of m (dats m 0 c) (A_eq m c 5) (after5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, and every final state has
    every window's array at what the proof data computes and every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its twelve argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.Region

end
-- ==== Proof.KernelIdealRegion.lean ====
/-
  The region of the program in namespace Cert.KernelIdeal, at any float instance: @main is six host operations (three
  concatenations, two changes of format, one reshape) and then ONE pipelined call over a grid of 16 points. At point t
  the body loads its six input blocks whole — rows 512 t … 512 t + 511 of x, of h and of the attention column, and the
  two fused weight matrices and the fused bias row, whose block index never moves —, computes, and stores ONE whole
  512 x 512 block of the output. So every weakly fair execution terminates without a fault, the output array ends at
  the blocks the body left (`outBlock` of the input blocks, point by point), and no argument array is written.
-/
import proofs.«177072_j69569880261404_2_alg».proof.Proof.Gen.KernelIdeal.Launch
import proofs.«177072_j69569880261404_2_alg».proof.Proof.Gen.KernelIdeal.Skeleton
import proofs.«177072_j69569880261404_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- What core `c`'s buffers hold when the call is entered: the launch contents after the six host operations. -/
abbrev V (c : Dev nD) (b : Ref sig .tc) : Buf (Elt F) ((c : Thread nD τ).loc b) :=
  StableHlo.after hostOps0 (fun b => m (c, b)) b

/-- None of the six host operations allocates. -/
theorem hostOps0_fresh : (hostOps0 : List (HloOp τ sig (Elt F))).Forall fun op => op.fresh = ∅ := by
  simp only [List.Forall]; repeat' constructor

/-- @main is the six host operations and then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the pipeline fetched it there
    or not (where it did not, the block index has not moved since the fetch). -/
theorem found0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem found5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

/-- From a run that ends with every window's array at what the proof data computes and every other unscoped buffer as
    the call found it: the three staged arguments are inputs (never written back), the other nine bypass the call, and
    no host operation writes an argument. -/
theorem kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩

/-- So a run that ends there leaves the twelve argument arrays unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => kept m dats hA r h c) h

/-! ## The body's accesses: each buffer whole -/

abbrev whole512x512 : Rect S512x512 := Rect.unit (s := S512x512) ![0, 0] S512x512.size inb_S512x512_S512x512_0_0
abbrev whole512x1 : Rect S512x1 := Rect.unit (s := S512x1) ![0, 0] S512x1.size inb_S512x1_S512x1_0_0
abbrev whole512x1536 : Rect S512x1536 := Rect.unit (s := S512x1536) ![0, 0] S512x1536.size inb_S512x1536_S512x1536_0_0
abbrev whole1x1536 : Rect S1x1536 := Rect.unit (s := S1x1536) ![0, 0] S1x1536.size inb_S1x1536_S1x1536_0_0

/-- What the body leaves in the output window's buffer, from the six input blocks: its one store, of the whole block. -/
def outBlock (x0 : Vec F S512x512 .f32) (x1 : Vec F S512x512 .f32) (x2 : Vec F S512x1 .f32) (x3 : Vec F S512x1536 .bf16)
    (x4 : Vec F S512x1536 .bf16) (x5 : Vec F S1x1536 .f32) : Vec F S512x512 .f32 :=
  View.canon [⟨whole512x512, k0_pay1 (View.ld x0 whole512x512) (View.ld x1 whole512x512) (View.ld x2 whole512x1)
    (View.ld x3 whole512x1536) (View.ld x4 whole512x1536) (View.ld x5 whole1x1536)⟩]

/-- The one store covers the buffer. -/
theorem outBlock_cover (p0 : Vec F S512x512 .f32) (y : S512x512.Idx) :
    ∃ pc ∈ ([⟨whole512x512, p0⟩] : List (View.Piece (Elt F) S512x512 .f32)), y ∈ pc.1.set :=
  View.cover_of_tiled [⟨whole512x512, p0⟩] S512x512.size (by rfl) y

/-! ## The body's triple -/

set_option maxHeartbeats 1000000 in
/-- The body on whole staging memrefs, the six inputs' at contents `x0 … x5` and the output's at anything, runs to the
    continuation with the inputs' as they were and the output's at `outBlock` of them. -/
theorem sound_kernel (c : Dev nD) (E : Set ℕ) (i : grid0.Coords)
    (arg1 : Memref sig .tc .vmem S512x512 .f32) (harg1 : arg1.IsWhole) (arg2 : Memref sig .tc .vmem S512x512 .f32) (harg2 : arg2.IsWhole)
    (arg3 : Memref sig .tc .vmem S512x1 .f32) (harg3 : arg3.IsWhole) (arg4 : Memref sig .tc .vmem S512x1536 .bf16) (harg4 : arg4.IsWhole)
    (arg5 : Memref sig .tc .vmem S512x1536 .bf16) (harg5 : arg5.IsWhole) (arg6 : Memref sig .tc .vmem S1x1536 .f32) (harg6 : arg6.IsWhole)
    (arg7 : Memref sig .tc .vmem S512x512 .f32) (harg7 : arg7.IsWhole)
    (x0 : Vec F S512x512 .f32) (x1 : Vec F S512x512 .f32) (x2 : Vec F S512x1 .f32) (x3 : Vec F S512x1536 .bf16)
    (x4 : Vec F S512x1536 .bf16) (x5 : Vec F S1x1536 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlock x0 x1 x2 x3 x4 x5)) -∗ K ⟨⟩))
      ⊢ wp frame (wpE (defs₀ (F := F)) Variants.none c none) E
          (cc0__augru_kernel i arg1 harg1 arg2 harg2 arg3 harg3 arg4 harg4 arg5 harg5 arg6 harg6 arg7 harg7) K := by
  simp only [cc0__augru_kernel_eq_skeleton]; unfold cc0__augru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (outBlock_cover _)

/-! ## The pipeline's proof data -/

/-- On core `c`: the arrays as the call finds them; after the body at point `t` each input's buffer still at its
    block and the output's at `outBlock` of the six input blocks; nothing carried between points beyond the scoped
    rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outBlock (iblk m c 0 t) (iblk m c 1 t) (iblk m c 2 t) (iblk m c 3 t) (iblk m c 4 t) (iblk m c 5 t) := by dsimp only [dats]

theorem found0 (c : Dev nD) (t : Fin cfg0.N) (d) : (dats m 0 c).before 0 t d = iblk m c 0 t :=
  found0_of m (dats m 0 c) (A_eq m c 0) (after0 m c) t d
theorem found1 (c : Dev nD) (t : Fin cfg0.N) (d) : (dats m 0 c).before 1 t d = iblk m c 1 t :=
  found1_of m (dats m 0 c) (A_eq m c 1) (after1 m c) t d
theorem found2 (c : Dev nD) (t : Fin cfg0.N) (d) : (dats m 0 c).before 2 t d = iblk m c 2 t :=
  found2_of m (dats m 0 c) (A_eq m c 2) (after2 m c) t d
theorem found3 (c : Dev nD) (t : Fin cfg0.N) (d) : (dats m 0 c).before 3 t d = iblk m c 3 t :=
  found3_of m (dats m 0 c) (A_eq m c 3) (after3 m c) t d
theorem found4 (c : Dev nD) (t : Fin cfg0.N) (d) : (dats m 0 c).before 4 t d = iblk m c 4 t :=
  found4_of m (dats m 0 c) (A_eq m c 4) (after4 m c) t d
theorem found5 (c : Dev nD) (t : Fin cfg0.N) (d) : (dats m 0 c).before 5 t d = iblk m c 5 t :=
  found5_of m (dats m 0 c) (A_eq m c 5) (after5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, and every final state has
    every window's array at what the proof data computes and every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its twelve argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Region

end
-- ==== Proof.LibThreePieces.lean ====
/-
  Three equal pieces joined, read at an index. For any element type and any extents:
  three [R, n] matrices joined along the columns into [R, N] read, at (r, j), the first piece at (r, c) when j = c,
  the second when j = n + c and the third when j = n + n + c (`cols3_first`, `cols3_second`, `cols3_third`);
  three [n] vectors joined end to end into [N] read likewise at j (`vec3_first`, `vec3_second`, `vec3_third`).
  The extents are related only through the concatenation's own side condition, which the caller holds.
-/
import Idealize.ShloMosaic.Lib.Pipeline.Value
import Idealize.ShloMosaic.Lib.ValueIdx

noncomputable section

namespace Cert.ThreePieces

open Idealize.ShloMosaic Idealize.ShloMosaic.ValueIdx

variable {α : Type}

section Columns
variable {R n N : Nat} (A B C : (⟨2, ![R, n]⟩ : Shape).Idx → α)
  (h : Shape.Concatenates [(⟨2, ![R, n]⟩ : Shape), ⟨2, ![R, n]⟩, ⟨2, ![R, n]⟩] ⟨2, ![R, N]⟩ 1)

private theorem off_axis (r : Fin R) (c : Fin n) (j : Fin N) :
    ∀ b : Fin (⟨2, ![R, n]⟩ : Shape).rank, b.cast (rfl : (⟨2, ![R, n]⟩ : Shape).rank = (⟨2, ![R, N]⟩ : Shape).rank) ≠ (1 : Fin 2) →
      ((ix2 r c : (⟨2, ![R, n]⟩ : Shape).Idx) b).val = ((ix2 r j : (⟨2, ![R, N]⟩ : Shape).Idx) (b.cast rfl)).val := fun b hb => by
  match b with
  | ⟨0, _⟩ => rfl
  | ⟨1, _⟩ => exact absurd (Fin.ext rfl) hb

/-- Columns 0 … n − 1 of the join are the first piece. -/
theorem cols3_first (r : Fin R) (c : Fin n) (j : Fin N) (hj : j.val = c.val) :
    concatenate (⟨2, ![R, N]⟩ : Shape) 1 [⟨⟨2, ![R, n]⟩, A⟩, ⟨⟨2, ![R, n]⟩, B⟩, ⟨⟨2, ![R, n]⟩, C⟩] h (ix2 r j) = A (ix2 r c) :=
  concatenate_apply_piece 1 [⟨⟨2, ![R, n]⟩, A⟩, ⟨⟨2, ![R, n]⟩, B⟩, ⟨⟨2, ![R, n]⟩, C⟩] h (ix2 r j) 0 (by show 0 < 3; omega) ⟨2, ![R, n]⟩ A rfl rfl 0 rfl (ix2 r c) (off_axis r c j)
    (by show 0 + c.val = j.val; omega)

/-- Columns n … 2n − 1 are the second piece. -/
theorem cols3_second (r : Fin R) (c : Fin n) (j : Fin N) (hj : j.val = n + c.val) :
    concatenate (⟨2, ![R, N]⟩ : Shape) 1 [⟨⟨2, ![R, n]⟩, A⟩, ⟨⟨2, ![R, n]⟩, B⟩, ⟨⟨2, ![R, n]⟩, C⟩] h (ix2 r j) = B (ix2 r c) :=
  concatenate_apply_piece 1 [⟨⟨2, ![R, n]⟩, A⟩, ⟨⟨2, ![R, n]⟩, B⟩, ⟨⟨2, ![R, n]⟩, C⟩] h (ix2 r j) 1 (by show 1 < 3; omega) ⟨2, ![R, n]⟩ B rfl rfl (n + 0) rfl (ix2 r c) (off_axis r c j)
    (by show n + 0 + c.val = j.val; omega)

/-- Columns 2n … 3n − 1 are the third piece. -/
theorem cols3_third (r : Fin R) (c : Fin n) (j : Fin N) (hj : j.val = n + n + c.val) :
    concatenate (⟨2, ![R, N]⟩ : Shape) 1 [⟨⟨2, ![R, n]⟩, A⟩, ⟨⟨2, ![R, n]⟩, B⟩, ⟨⟨2, ![R, n]⟩, C⟩] h (ix2 r j) = C (ix2 r c) :=
  concatenate_apply_piece 1 [⟨⟨2, ![R, n]⟩, A⟩, ⟨⟨2, ![R, n]⟩, B⟩, ⟨⟨2, ![R, n]⟩, C⟩] h (ix2 r j) 2 (by show 2 < 3; omega) ⟨2, ![R, n]⟩ C rfl rfl (n + (n + 0)) rfl (ix2 r c) (off_axis r c j)
    (by show n + (n + 0) + c.val = j.val; omega)

end Columns

section Vectors
variable {n N : Nat} (a b c : (⟨1, ![n]⟩ : Shape).Idx → α)
  (h : Shape.Concatenates [(⟨1, ![n]⟩ : Shape), ⟨1, ![n]⟩, ⟨1, ![n]⟩] ⟨1, ![N]⟩ 0)

private theorem no_other_axis (e : Fin n) (j : Fin N) :
    ∀ d : Fin (⟨1, ![n]⟩ : Shape).rank, d.cast (rfl : (⟨1, ![n]⟩ : Shape).rank = (⟨1, ![N]⟩ : Shape).rank) ≠ (0 : Fin 1) →
      ((ix1 e : (⟨1, ![n]⟩ : Shape).Idx) d).val = ((ix1 j : (⟨1, ![N]⟩ : Shape).Idx) (d.cast rfl)).val := fun d hd => by
  match d with
  | ⟨0, _⟩ => exact absurd (Fin.ext rfl) hd

/-- Entries 0 … n − 1 of the join are the first piece. -/
theorem vec3_first (e : Fin n) (j : Fin N) (hj : j.val = e.val) :
    concatenate (⟨1, ![N]⟩ : Shape) 0 [⟨⟨1, ![n]⟩, a⟩, ⟨⟨1, ![n]⟩, b⟩, ⟨⟨1, ![n]⟩, c⟩] h (ix1 j) = a (ix1 e) :=
  concatenate_apply_piece 0 [⟨⟨1, ![n]⟩, a⟩, ⟨⟨1, ![n]⟩, b⟩, ⟨⟨1, ![n]⟩, c⟩] h (ix1 j) 0 (by show 0 < 3; omega) ⟨1, ![n]⟩ a rfl rfl 0 rfl (ix1 e) (no_other_axis e j)
    (by show 0 + e.val = j.val; omega)

/-- Entries n … 2n − 1 are the second piece. -/
theorem vec3_second (e : Fin n) (j : Fin N) (hj : j.val = n + e.val) :
    concatenate (⟨1, ![N]⟩ : Shape) 0 [⟨⟨1, ![n]⟩, a⟩, ⟨⟨1, ![n]⟩, b⟩, ⟨⟨1, ![n]⟩, c⟩] h (ix1 j) = b (ix1 e) :=
  concatenate_apply_piece 0 [⟨⟨1, ![n]⟩, a⟩, ⟨⟨1, ![n]⟩, b⟩, ⟨⟨1, ![n]⟩, c⟩] h (ix1 j) 1 (by show 1 < 3; omega) ⟨1, ![n]⟩ b rfl rfl (n + 0) rfl (ix1 e) (no_other_axis e j)
    (by show n + 0 + e.val = j.val; omega)

/-- Entries 2n … 3n − 1 are the third piece. -/
theorem vec3_third (e : Fin n) (j : Fin N) (hj : j.val = n + n + e.val) :
    concatenate (⟨1, ![N]⟩ : Shape) 0 [⟨⟨1, ![n]⟩, a⟩, ⟨⟨1, ![n]⟩, b⟩, ⟨⟨1, ![n]⟩, c⟩] h (ix1 j) = c (ix1 e) :=
  concatenate_apply_piece 0 [⟨⟨1, ![n]⟩, a⟩, ⟨⟨1, ![n]⟩, b⟩, ⟨⟨1, ![n]⟩, c⟩] h (ix1 j) 2 (by show 2 < 3; omega) ⟨1, ![n]⟩ c rfl rfl (n + (n + 0)) rfl (ix1 e) (no_other_axis e j)
    (by show n + (n + 0) + e.val = j.val; omega)

end Vectors

end Cert.ThreePieces

end
-- ==== Proof.FusedOperands.lean ====
/-
  What the call finds in its three fused operands. Before the call @main joins Wxr, Wxu, Wxh side by side into one
  [512, 1536] matrix and changes its format (the identity at the ideal instance), does the same with Whr, Whu, Whh, and
  joins br, bu, bh end to end into one vector of 1536 entries that it then reads as a [1, 1536] row. So column
  o + u of a fused matrix, o = 0, 512, 1024, is column u of its first, second, third part, and entry o + u of the
  fused row is entry u of the corresponding bias.
-/
import proofs.«177072_j69569880261404_2_alg».proof.Proof.KernelIdealRegion
import proofs.«177072_j69569880261404_2_alg».proof.Proof.LibThreePieces
import Idealize.ShloMosaic.Lib.StableHlo.Run
import Idealize.ShloMosaic.Lib.ValueLayout

noncomputable section

namespace Cert.KernelIdeal.FusedOperands

open Cert.KernelIdeal Cert.KernelIdeal.Gen Cert.KernelIdeal.Region Cert.ThreePieces
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-- A host operation of three operands leaves in its result buffer its function of the three operands' contents, each
    read at its own buffer. -/
theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Reads one buffer after the six host operations: each operation's own result is its function's value, any other
    buffer is what it was. -/
macro "read_after_prefix" : tactic =>
  `(tactic| (simp only [after_cons, after_nil]
             repeat (first
               | rw [nary3_result] | rw [unary_result] | rw [reshape_result]
               | (rw [unary_result_ne]; rotate_left; decide)
               | (rw [nary_result_ne]; rotate_left; decide)
               | (rw [reshape_result_ne]; rotate_left; decide))))

/-! ## The fused input-side weights -/

/-- The call's fourth operand is [Wxr | Wxu | Wxh]. -/
theorem fusedX (c : Dev nD) : @Eq (S512x1536.Idx → EReal) (V m c main_v1)
    (truncf (F := Ideal) .bf16 (concatenate S512x1536 1 [⟨S512x512, m ((c : Thread nD τ).loc main_arg3)⟩, ⟨S512x512, m ((c : Thread nD τ).loc main_arg6)⟩, ⟨S512x512, m ((c : Thread nD τ).loc main_arg9)⟩]
        concatenates_S512x512_S512x512_S512x512_S512x1536_d1) bitsLt_bf16_f32) := by
  dsimp only [V, hostOps0]
  read_after_prefix
  rfl

/-- Columns 0 … 511 of the fused input-side weights are Wxr. -/
theorem fusedX_first (c : Dev nD) (k u : Fin 512) :
    (V m c main_v1 : S512x1536.Idx → EReal) (ix2 k (⟨0 + u.val, by have := u.isLt; omega⟩ : Fin 1536))
      = (m ((c : Thread nD τ).loc main_arg3) : S512x512.Idx → EReal) (ix2 k u) :=
  (congrFun (fusedX m c) _).trans
    (cols3_first (m ((c : Thread nD τ).loc main_arg3) : S512x512.Idx → EReal) (m ((c : Thread nD τ).loc main_arg6)) (m ((c : Thread nD τ).loc main_arg9))
      concatenates_S512x512_S512x512_S512x512_S512x1536_d1 k u _ (Nat.zero_add _))
/-- Columns 512 … 1023 are Wxu. -/
theorem fusedX_second (c : Dev nD) (k u : Fin 512) :
    (V m c main_v1 : S512x1536.Idx → EReal) (ix2 k (⟨512 + u.val, by have := u.isLt; omega⟩ : Fin 1536))
      = (m ((c : Thread nD τ).loc main_arg6) : S512x512.Idx → EReal) (ix2 k u) :=
  (congrFun (fusedX m c) _).trans
    (cols3_second (m ((c : Thread nD τ).loc main_arg3) : S512x512.Idx → EReal) (m ((c : Thread nD τ).loc main_arg6)) (m ((c : Thread nD τ).loc main_arg9))
      concatenates_S512x512_S512x512_S512x512_S512x1536_d1 k u _ rfl)
/-- Columns 1024 … 1535 are Wxh. -/
theorem fusedX_third (c : Dev nD) (k u : Fin 512) :
    (V m c main_v1 : S512x1536.Idx → EReal) (ix2 k (⟨1024 + u.val, by have := u.isLt; omega⟩ : Fin 1536))
      = (m ((c : Thread nD τ).loc main_arg9) : S512x512.Idx → EReal) (ix2 k u) :=
  (congrFun (fusedX m c) _).trans
    (cols3_third (m ((c : Thread nD τ).loc main_arg3) : S512x512.Idx → EReal) (m ((c : Thread nD τ).loc main_arg6)) (m ((c : Thread nD τ).loc main_arg9))
      concatenates_S512x512_S512x512_S512x512_S512x1536_d1 k u _ rfl)

/-! ## The fused hidden-side weights -/

/-- The call's fifth operand is [Whr | Whu | Whh]. -/
theorem fusedH (c : Dev nD) : @Eq (S512x1536.Idx → EReal) (V m c main_v3)
    (truncf (F := Ideal) .bf16 (concatenate S512x1536 1 [⟨S512x512, m ((c : Thread nD τ).loc main_arg5)⟩, ⟨S512x512, m ((c : Thread nD τ).loc main_arg8)⟩, ⟨S512x512, m ((c : Thread nD τ).loc main_arg11)⟩]
        concatenates_S512x512_S512x512_S512x512_S512x1536_d1) bitsLt_bf16_f32) := by
  dsimp only [V, hostOps0]
  read_after_prefix
  rfl

/-- Columns 0 … 511 of the fused hidden-side weights are Whr. -/
theorem fusedH_first (c : Dev nD) (k u : Fin 512) :
    (V m c main_v3 : S512x1536.Idx → EReal) (ix2 k (⟨0 + u.val, by have := u.isLt; omega⟩ : Fin 1536))
      = (m ((c : Thread nD τ).loc main_arg5) : S512x512.Idx → EReal) (ix2 k u) :=
  (congrFun (fusedH m c) _).trans
    (cols3_first (m ((c : Thread nD τ).loc main_arg5) : S512x512.Idx → EReal) (m ((c : Thread nD τ).loc main_arg8)) (m ((c : Thread nD τ).loc main_arg11))
      concatenates_S512x512_S512x512_S512x512_S512x1536_d1 k u _ (Nat.zero_add _))
/-- Columns 512 … 1023 are Whu. -/
theorem fusedH_second (c : Dev nD) (k u : Fin 512) :
    (V m c main_v3 : S512x1536.Idx → EReal) (ix2 k (⟨512 + u.val, by have := u.isLt; omega⟩ : Fin 1536))
      = (m ((c : Thread nD τ).loc main_arg8) : S512x512.Idx → EReal) (ix2 k u) :=
  (congrFun (fusedH m c) _).trans
    (cols3_second (m ((c : Thread nD τ).loc main_arg5) : S512x512.Idx → EReal) (m ((c : Thread nD τ).loc main_arg8)) (m ((c : Thread nD τ).loc main_arg11))
      concatenates_S512x512_S512x512_S512x512_S512x1536_d1 k u _ rfl)
/-- Columns 1024 … 1535 are Whh. -/
theorem fusedH_third (c : Dev nD) (k u : Fin 512) :
    (V m c main_v3 : S512x1536.Idx → EReal) (ix2 k (⟨1024 + u.val, by have := u.isLt; omega⟩ : Fin 1536))
      = (m ((c : Thread nD τ).loc main_arg11) : S512x512.Idx → EReal) (ix2 k u) :=
  (congrFun (fusedH m c) _).trans
    (cols3_third (m ((c : Thread nD τ).loc main_arg5) : S512x512.Idx → EReal) (m ((c : Thread nD τ).loc main_arg8)) (m ((c : Thread nD τ).loc main_arg11))
      concatenates_S512x512_S512x512_S512x512_S512x1536_d1 k u _ rfl)

/-! ## The fused bias row -/

/-- The call's sixth operand is the row [br | bu | bh]. -/
theorem fusedB (c : Dev nD) : (V m c main_v5 : S1x1536.Idx → EReal)
    = shapeCast S1x1536 (concatenate S1536 0 [⟨S512, m ((c : Thread nD τ).loc main_arg4)⟩, ⟨S512, m ((c : Thread nD τ).loc main_arg7)⟩, ⟨S512, m ((c : Thread nD τ).loc main_arg10)⟩]
        concatenates_S512_S512_S512_S1536_d0) shapeCasts_S1536_S1x1536 := by
  dsimp only [V, hostOps0]
  read_after_prefix
  rfl

/-- Entries 0 … 511 of the fused bias row are br. -/
theorem fusedB_first (c : Dev nD) (u : Fin 512) :
    (V m c main_v5 : S1x1536.Idx → EReal) (ix2 (0 : Fin 1) (⟨0 + u.val, by have := u.isLt; omega⟩ : Fin 1536))
      = (m ((c : Thread nD τ).loc main_arg4) : S512.Idx → EReal) (ix1 u) :=
  (congrFun (fusedB m c) _).trans ((shapeCast_a_1a_apply _ shapeCasts_S1536_S1x1536 (0 : Fin 1) _).trans
    (vec3_first (m ((c : Thread nD τ).loc main_arg4) : S512.Idx → EReal) (m ((c : Thread nD τ).loc main_arg7)) (m ((c : Thread nD τ).loc main_arg10))
      concatenates_S512_S512_S512_S1536_d0 u _ (Nat.zero_add _)))
/-- Entries 512 … 1023 are bu. -/
theorem fusedB_second (c : Dev nD) (u : Fin 512) :
    (V m c main_v5 : S1x1536.Idx → EReal) (ix2 (0 : Fin 1) (⟨512 + u.val, by have := u.isLt; omega⟩ : Fin 1536))
      = (m ((c : Thread nD τ).loc main_arg7) : S512.Idx → EReal) (ix1 u) :=
  (congrFun (fusedB m c) _).trans ((shapeCast_a_1a_apply _ shapeCasts_S1536_S1x1536 (0 : Fin 1) _).trans
    (vec3_second (m ((c : Thread nD τ).loc main_arg4) : S512.Idx → EReal) (m ((c : Thread nD τ).loc main_arg7)) (m ((c : Thread nD τ).loc main_arg10))
      concatenates_S512_S512_S512_S1536_d0 u _ rfl))
/-- Entries 1024 … 1535 are bh. -/
theorem fusedB_third (c : Dev nD) (u : Fin 512) :
    (V m c main_v5 : S1x1536.Idx → EReal) (ix2 (0 : Fin 1) (⟨1024 + u.val, by have := u.isLt; omega⟩ : Fin 1536))
      = (m ((c : Thread nD τ).loc main_arg10) : S512.Idx → EReal) (ix1 u) :=
  (congrFun (fusedB m c) _).trans ((shapeCast_a_1a_apply _ shapeCasts_S1536_S1x1536 (0 : Fin 1) _).trans
    (vec3_third (m ((c : Thread nD τ).loc main_arg4) : S512.Idx → EReal) (m ((c : Thread nD τ).loc main_arg7)) (m ((c : Thread nD τ).loc main_arg10))
      concatenates_S512_S512_S512_S1536_d0 u _ rfl))

end Cert.KernelIdeal.FusedOperands

end
-- ==== Proof.GatedCell.lean ====
/-
  The cell both programs compute, over the extended reals.

  For a row r of the batch and a unit c, with x·W the matrix products of the inputs x and the old hidden state h with
  the six weight matrices, b the three biases and a the row's attention score:
    reset      = σ((x·Wxr)[r,c] + br[c] + (h·Whr)[r,c])
    update     = σ((x·Wxu)[r,c] + bu[c] + (h·Whu)[r,c])
    candidate  = tanh((x·Wxh)[r,c] + bh[c] + reset · (h·Whh)[r,c])
    new[r,c]   = (1 − a[r]·update) · h[r,c] + (a[r]·update) · candidate
  with σ z = 1 / (1 + e^(−z)) (the extended reals' corners as the ideal instance sets them) and every sum and product
  the extended reals' own, in exactly this grouping. The word of 1.0 in "1 − …" is kept as the float word both programs
  write; inside σ it is read as the number 1.
-/
import Idealize.ShloMosaic.PureOps.Ideal
import Idealize.ShloMosaic.Lib.ValueIdx
import Idealize.ShloMosaic.Lib.IdealHost

noncomputable section

open scoped BigOperators

namespace Cert.GatedCell

open Idealize.ShloMosaic Idealize.ShloMosaic.ValueIdx

/-- The extended real the f32 word of 1.0 denotes. -/
abbrev oneWord : EReal := Ideal.ofBits .f32 0x3F800000#32

/-- One entry of the new hidden state from the six product entries `xr xu xh hr hu hh`, the three bias entries, the
    row's attention score `a` and the old hidden entry `hv`. -/
def cell (xr xu xh hr hu hh br bu bh a hv : EReal) : EReal :=
  (oneWord - a * Ideal.logistic ((xu + bu) + hu)) * hv
    + (a * Ideal.logistic ((xu + bu) + hu)) * Ideal.tanh ((xh + bh) + Ideal.logistic ((xr + br) + hr) * hh)

/-- σ spelt with a negation, an exponential, a sum and a quotient over the word of 1.0 is σ. -/
theorem logistic_spelt (z : EReal) : Ideal.div oneWord (oneWord + Ideal.exp (-z)) = Ideal.logistic z := by
  unfold oneWord; rw [Ideal.ofBits_one_f32]; rfl

/-- A real matrix of extended reals by its literal extents, and a vector. -/
abbrev Mat (r c : Nat) : Type := (⟨2, ![r, c]⟩ : Shape).Idx → EReal
abbrev Vct (n : Nat) : Type := (⟨1, ![n]⟩ : Shape).Idx → EReal

/-- Entry (r, c) of the product of an [R, 512] matrix with a [512, N] one. -/
def rowsTimes {R N : Nat} (x : Mat R 512) (W : Mat 512 N) (r : Fin R) (c : Fin N) : EReal :=
  ∑ k : Fin 512, x (ix2 r k) * W (ix2 k c)

/-- The new hidden state as ONE function of the twelve argument arrays, entry by entry. -/
def newState (X H : Mat 8192 512) (A : Mat 8192 1) (Wxr : Mat 512 512) (br : Vct 512) (Whr Wxu : Mat 512 512) (bu : Vct 512)
    (Whu Wxh : Mat 512 512) (bh : Vct 512) (Whh : Mat 512 512) : Mat 8192 512 := fun i =>
  cell (rowsTimes X Wxr (i 0) (i 1)) (rowsTimes X Wxu (i 0) (i 1)) (rowsTimes X Wxh (i 0) (i 1))
    (rowsTimes H Whr (i 0) (i 1)) (rowsTimes H Whu (i 0) (i 1)) (rowsTimes H Whh (i 0) (i 1))
    (br (ix1 (i 1))) (bu (ix1 (i 1))) (bh (ix1 (i 1))) (A (ix2 (i 0) (0 : Fin 1))) (H i)

end Cert.GatedCell

end
-- ==== Proof.BodyCell.lean ====
/-
  One point of the grid computes the cell on its 512 rows. From the six blocks it loads — 512 rows x0 of x and x1 of h,
  their attention column x2, the two fused weight matrices x3 = [Wxr | Wxu | Wxh] and x4 = [Whr | Whu | Whh] and the
  fused bias row x5 = [br | bu | bh] — the body forms the two [512, 1536] products x0·x3 and x1·x4 into zero
  accumulators, cuts each into three column bands of 512, and combines them entry by entry. So the value it stores at
  (p, c) is `cell` of the products' entries at columns c, 512 + c and 1024 + c, the bias row there, x2 at row p and
  x1 at (p, c).
-/
import proofs.«177072_j69569880261404_2_alg».proof.Proof.Gen.KernelIdeal.Skeleton
import proofs.«177072_j69569880261404_2_alg».proof.Proof.GatedCell
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.BodyValue

open Cert.KernelIdeal Cert.KernelIdeal.Gen Cert.GatedCell
open Idealize.ShloMosaic Idealize.ShloMosaic.ValueIdx

/-! ## The matrix product read at an entry -/

theorem lhs_row (i : S512x1536.Idx) (q : dot_S512x512_S512x1536_S512x1536_1_0_0_1_n_n.contr.Idx) : (dot_S512x512_S512x1536_S512x1536_1_0_0_1_n_n.lhsIdx i q 0).val = (i 0).val := by
  unfold DotDims.lhsIdx
  rw [dif_neg (show ¬(0 : Fin S512x512.rank) ∈ dot_S512x512_S512x1536_S512x1536_1_0_0_1_n_n.lhsBatch by decide), dif_pos (show (0 : Fin S512x512.rank) ∈ dot_S512x512_S512x1536_S512x1536_1_0_0_1_n_n.lhsNonContracting by decide)]
  rfl
theorem lhs_col (i : S512x1536.Idx) (q : dot_S512x512_S512x1536_S512x1536_1_0_0_1_n_n.contr.Idx) : (dot_S512x512_S512x1536_S512x1536_1_0_0_1_n_n.lhsIdx i q 1).val = (q ⟨0, by decide⟩).val :=
  dot_S512x512_S512x1536_S512x1536_1_0_0_1_n_n.lhsIdx_val_of_single rfl i q
theorem rhs_row (i : S512x1536.Idx) (q : dot_S512x512_S512x1536_S512x1536_1_0_0_1_n_n.contr.Idx) : (dot_S512x512_S512x1536_S512x1536_1_0_0_1_n_n.rhsIdx i q 0).val = (q ⟨0, by decide⟩).val :=
  dot_S512x512_S512x1536_S512x1536_1_0_0_1_n_n.rhsIdx_val_of_single rfl i q
theorem rhs_col (i : S512x1536.Idx) (q : dot_S512x512_S512x1536_S512x1536_1_0_0_1_n_n.contr.Idx) : (dot_S512x512_S512x1536_S512x1536_1_0_0_1_n_n.rhsIdx i q 1).val = (i 1).val := by
  unfold DotDims.rhsIdx
  rw [dif_neg (show ¬(1 : Fin S512x1536.rank) ∈ dot_S512x512_S512x1536_S512x1536_1_0_0_1_n_n.rhsBatch by decide), dif_pos (show (1 : Fin S512x1536.rank) ∈ dot_S512x512_S512x1536_S512x1536_1_0_0_1_n_n.rhsNonContracting by decide)]
  rfl

/-- The product of a [512, 512] block with a [512, 1536] matrix into the zero accumulator, at (p, j): the sum over the
    contracted coordinate k of x[p, k] · W[k, j]. -/
theorem product_apply (x : FVec Ideal S512x512 .bf16) (W : FVec Ideal S512x1536 .bf16) (p : Fin 512) (j : Fin 1536) :
    matmul dot_S512x512_S512x1536_S512x1536_1_0_0_1_n_n none x W (constant S512x1536 .f32 0x00000000#32) (ix2 p j) = rowsTimes x W p j := by
  simp only [matmul]
  rw [Ideal.matmul_constant_zero_apply, ← Equiv.sum_comp (contrEquiv1 dot_S512x512_S512x1536_S512x1536_1_0_0_1_n_n 512 rfl rfl).symm]
  unfold rowsTimes
  refine Finset.sum_congr rfl fun k _ => ?_
  have hk := contrEquiv1_symm_val dot_S512x512_S512x1536_S512x1536_1_0_0_1_n_n 512 rfl rfl k
  have el : dot_S512x512_S512x1536_S512x1536_1_0_0_1_n_n.lhsIdx (ix2 p j) ((contrEquiv1 dot_S512x512_S512x1536_S512x1536_1_0_0_1_n_n 512 rfl rfl).symm k) = ix2 p k := funext fun a => Fin.ext (by
    match a with
    | ⟨0, _⟩ => exact lhs_row _ _
    | ⟨1, _⟩ => exact (lhs_col _ _).trans hk)
  have er : dot_S512x512_S512x1536_S512x1536_1_0_0_1_n_n.rhsIdx (ix2 p j) ((contrEquiv1 dot_S512x512_S512x1536_S512x1536_1_0_0_1_n_n 512 rfl rfl).symm k) = ix2 k j := funext fun a => Fin.ext (by
    match a with
    | ⟨0, _⟩ => exact (rhs_row _ _).trans hk
    | ⟨1, _⟩ => exact rhs_col _ _)
  rw [el, er]

/-- A band of 512 columns of such a product, cut from column `o`, at (p, c): the product's entry at column o + c. -/
theorem band_apply (o : Nat) (ho : o + 512 ≤ 1536) (x : FVec Ideal S512x512 .bf16) (W : FVec Ideal S512x1536 .bf16)
    (h : S512x1536.Slices ![0, o] S512x512) (p c : Fin 512) :
    extractStridedSlice S512x512 ![0, o] (matmul dot_S512x512_S512x1536_S512x1536_1_0_0_1_n_n none x W (constant S512x1536 .f32 0x00000000#32)) h (ix2 p c)
      = rowsTimes x W p (⟨o + c.val, by have := c.isLt; omega⟩ : Fin 1536) :=
  (slice2_axis1_apply o _ h p c (⟨o + c.val, by have := c.isLt; omega⟩ : Fin 1536) rfl).trans (product_apply x W p _)

/-- A band of 512 entries of the bias row, cut from `o` and repeated down the 512 rows, at (p, c): the row's entry o + c. -/
theorem bias_apply (o : Nat) (ho : o + 512 ≤ 1536) (b : FVec Ideal S1x1536 .f32) (h : S1x1536.Slices ![0, o] S1x512)
    (hb : S1x512.Broadcasts S512x512) (p c : Fin 512) :
    broadcastTo S512x512 (extractStridedSlice S1x512 ![0, o] b h) hb (ix2 p c)
      = b (ix2 (0 : Fin 1) (⟨o + c.val, by have := c.isLt; omega⟩ : Fin 1536)) :=
  (broadcastTo_1b_ab_apply _ hb p c).trans (slice2_axis1_apply o b h (0 : Fin 1) c _ rfl)

/-- The attention column repeated across the 512 units, at (p, c): the column's entry at row p. -/
theorem score_apply {α : Type} (a : S512x1.Idx → α) (hb : S512x1.Broadcasts S512x512) (p c : Fin 512) :
    broadcastTo S512x512 a hb (ix2 p c) = a (ix2 p (0 : Fin 1)) := by
  refine broadcastTo_apply a hb (ix2 p c) (ix2 p (0 : Fin 1)) fun ax => ?_
  match ax with
  | ⟨0, _⟩ =>
    show p.val = if (512 : Nat) = 1 then 0 else p.val
    rw [if_neg (by decide)]
  | ⟨1, _⟩ =>
    show (0 : Nat) = if (1 : Nat) = 1 then 0 else c.val
    rw [if_pos rfl]

/-! ## The stored value at an entry -/

/-- At the ideal instance a change of float format leaves every entry as it is. -/
theorem truncf_bf16_eq {s : Shape} (x : FVec Ideal s .f32) (h : FTy.bits .bf16 < FTy.bits .f32) :
    (truncf .bf16 x h : FVec Ideal s .bf16) = x := rfl

theorem logistic_apply {s : Shape} (a : FVec Ideal s .f32) (i : s.Idx) : logistic a i = Ideal.logistic (a i) := rfl
theorem tanh_apply {s : Shape} (a : FVec Ideal s .f32) (i : s.Idx) : tanh a i = Ideal.tanh (a i) := rfl

/-- What the body stores at (p, c), from its six loaded blocks. -/
theorem stored_apply (x0 x1 : Vec Ideal S512x512 .f32) (x2 : Vec Ideal S512x1 .f32) (x3 x4 : Vec Ideal S512x1536 .bf16)
    (x5 : Vec Ideal S1x1536 .f32) (p c : Fin 512) :
    k0_pay1 (F := Ideal) x0 x1 x2 x3 x4 x5 (ix2 p c)
      = cell (rowsTimes x0 x3 p (⟨0 + c.val, by have := c.isLt; omega⟩ : Fin 1536))
          (rowsTimes x0 x3 p (⟨512 + c.val, by have := c.isLt; omega⟩ : Fin 1536))
          (rowsTimes x0 x3 p (⟨1024 + c.val, by have := c.isLt; omega⟩ : Fin 1536))
          (rowsTimes x1 x4 p (⟨0 + c.val, by have := c.isLt; omega⟩ : Fin 1536))
          (rowsTimes x1 x4 p (⟨512 + c.val, by have := c.isLt; omega⟩ : Fin 1536))
          (rowsTimes x1 x4 p (⟨1024 + c.val, by have := c.isLt; omega⟩ : Fin 1536))
          (x5 (ix2 (0 : Fin 1) (⟨0 + c.val, by have := c.isLt; omega⟩ : Fin 1536)))
          (x5 (ix2 (0 : Fin 1) (⟨512 + c.val, by have := c.isLt; omega⟩ : Fin 1536)))
          (x5 (ix2 (0 : Fin 1) (⟨1024 + c.val, by have := c.isLt; omega⟩ : Fin 1536)))
          (x2 (ix2 p (0 : Fin 1))) (x1 (ix2 p c)) := by
  unfold k0_pay1
  simp only [shapeCast_self, addf_apply, mulf_apply, subf_apply, logistic_apply, tanh_apply, broadcast_apply,
    band_apply 0 (by decide), band_apply 512 (by decide), band_apply 1024 (by decide),
    bias_apply 0 (by decide), bias_apply 512 (by decide), bias_apply 1024 (by decide), score_apply, truncf_bf16_eq]
  rfl

end Cert.KernelIdeal.BodyValue

end
-- ==== Proof.KernelValue.lean ====
/-
  The kernel's result array is the cell of its arguments. Point t of the grid handles rows 512 t … 512 t + 511: its
  blocks of x, h and the attention column are those rows, its weight and bias operands are the whole fused arrays, and
  its output block is those rows of the result. What it stores at (p, u) is `cell` of the two fused products' entries
  at columns u, 512 + u, 1024 + u — which are the entries at column u of x·Wxr, x·Wxu, x·Wxh and of h·Whr, h·Whu, h·Whh at
  row 512 t + p —, so block t of the result is block t of `newState`; the sixteen blocks cover the array.
-/
import proofs.«177072_j69569880261404_2_alg».proof.Proof.KernelIdealRegion
import proofs.«177072_j69569880261404_2_alg».proof.Proof.FusedOperands
import proofs.«177072_j69569880261404_2_alg».proof.Proof.BodyCell
import proofs.«177072_j69569880261404_2_alg».proof.Proof.GatedCell
import Idealize.ShloMosaic.Lib.Pipeline.Value

set_option maxRecDepth 16384

noncomputable section

open scoped BigOperators

namespace Cert.KernelIdeal.CellValue

open Cert.KernelIdeal Cert.KernelIdeal.Gen Cert.KernelIdeal.Region Cert.KernelIdeal.FusedOperands Cert.KernelIdeal.BodyValue
open Cert.GatedCell
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The result array as one function of the twelve argument arrays. -/
def result (c : Dev nD) : S8192x512.Idx → EReal :=
  newState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-! ## Where each window's block sits -/

theorem zero_offsets : (![0, 0] : Fin 2 → Nat) = fun _ => 0 := funext fun a => by fin_cases a <;> rfl

/-- The printed index maps over the grid: the three row-blocked inputs and the output are at block row t, column 0;
    the three fused operands never move. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 16 := Nat.lt_of_lt_of_eq t.isLt N_0

/-- Row p of point t's blocks is row 512 t + p of the arrays. -/
def row (t : Fin cfg0.N) (p : Fin 512) : Fin 8192 := ⟨512 * t.val + p.val, by have := point_lt t; have := p.isLt; omega⟩

/-- Point t's block of x. -/
theorem block_x (c : Dev nD) (t : Fin cfg0.N) (p k : Fin 512) :
    iblk m c 0 t (ix2 p k) = (m ((c : Thread nD τ).loc main_arg0) : S8192x512.Idx → EReal) (ix2 (row t p) k) := by
  show V m c main_arg0 (((cfg0.win 0).blk t).view.emb (ix2 p k)) = _
  rw [V_main_arg0]
  refine congrArg _ (funext fun a => Fin.ext ?_)
  obtain ⟨e0, e1, -⟩ := block_indices t
  match a with
  | ⟨0, _⟩ => show win0_0.index t (0 : Fin 2) * 512 + 1 * p.val = 512 * t.val + p.val; omega
  | ⟨1, _⟩ => show win0_0.index t (1 : Fin 2) * 512 + 1 * k.val = k.val; omega

/-- Point t's block of h. -/
theorem block_h (c : Dev nD) (t : Fin cfg0.N) (p k : Fin 512) :
    iblk m c 1 t (ix2 p k) = (m ((c : Thread nD τ).loc main_arg1) : S8192x512.Idx → EReal) (ix2 (row t p) k) := by
  show V m c main_arg1 (((cfg0.win 1).blk t).view.emb (ix2 p k)) = _
  rw [V_main_arg1]
  refine congrArg _ (funext fun a => Fin.ext ?_)
  obtain ⟨-, -, e0, e1, -⟩ := block_indices t
  match a with
  | ⟨0, _⟩ => show win0_1.index t (0 : Fin 2) * 512 + 1 * p.val = 512 * t.val + p.val; omega
  | ⟨1, _⟩ => show win0_1.index t (1 : Fin 2) * 512 + 1 * k.val = k.val; omega

/-- Point t's block of the attention column. -/
theorem block_a (c : Dev nD) (t : Fin cfg0.N) (p : Fin 512) :
    iblk m c 2 t (ix2 p (0 : Fin 1)) = (m ((c : Thread nD τ).loc main_arg2) : S8192x1.Idx → EReal) (ix2 (row t p) (0 : Fin 1)) := by
  show V m c main_arg2 (((cfg0.win 2).blk t).view.emb (ix2 p (0 : Fin 1))) = _
  rw [V_main_arg2]
  refine congrArg _ (funext fun a => Fin.ext ?_)
  obtain ⟨-, -, -, -, e0, e1, -⟩ := block_indices t
  match a with
  | ⟨0, _⟩ => show win0_2.index t (0 : Fin 2) * 512 + 1 * p.val = 512 * t.val + p.val; omega
  | ⟨1, _⟩ => show win0_2.index t (1 : Fin 2) * 1 + 1 * 0 = 0; omega

/-- The fused input-side weights' one block is the whole array. -/
theorem block_wx (c : Dev nD) (t : Fin cfg0.N) (k : Fin 512) (j : Fin 1536) :
    iblk m c 3 t (ix2 k j) = (V m c main_v1 : S512x1536.Idx → EReal) (ix2 k j) := by
  show V m c main_v1 (((cfg0.win 3).blk t).view.emb (ix2 k j)) = _
  refine congrArg _ (funext fun a => Fin.ext ?_)
  obtain ⟨-, -, -, -, -, -, e0, e1, -⟩ := block_indices t
  match a with
  | ⟨0, _⟩ => show win0_3.index t (0 : Fin 2) * 512 + 1 * k.val = k.val; omega
  | ⟨1, _⟩ => show win0_3.index t (1 : Fin 2) * 1536 + 1 * j.val = j.val; omega

/-- The fused hidden-side weights' one block is the whole array. -/
theorem block_wh (c : Dev nD) (t : Fin cfg0.N) (k : Fin 512) (j : Fin 1536) :
    iblk m c 4 t (ix2 k j) = (V m c main_v3 : S512x1536.Idx → EReal) (ix2 k j) := by
  show V m c main_v3 (((cfg0.win 4).blk t).view.emb (ix2 k j)) = _
  refine congrArg _ (funext fun a => Fin.ext ?_)
  obtain ⟨-, -, -, -, -, -, -, -, e0, e1, -⟩ := block_indices t
  match a with
  | ⟨0, _⟩ => show win0_4.index t (0 : Fin 2) * 512 + 1 * k.val = k.val; omega
  | ⟨1, _⟩ => show win0_4.index t (1 : Fin 2) * 1536 + 1 * j.val = j.val; omega

/-- The fused bias row's one block is the whole row. -/
theorem block_b (c : Dev nD) (t : Fin cfg0.N) (j : Fin 1536) :
    iblk m c 5 t (ix2 (0 : Fin 1) j) = (V m c main_v5 : S1x1536.Idx → EReal) (ix2 (0 : Fin 1) j) := by
  show V m c main_v5 (((cfg0.win 5).blk t).view.emb (ix2 (0 : Fin 1) j)) = _
  refine congrArg _ (funext fun a => Fin.ext ?_)
  obtain ⟨-, -, -, -, -, -, -, -, -, -, e0, e1, -⟩ := block_indices t
  match a with
  | ⟨0, _⟩ => show win0_5.index t (0 : Fin 2) * 1 + 1 * 0 = 0; omega
  | ⟨1, _⟩ => show win0_5.index t (1 : Fin 2) * 1536 + 1 * j.val = j.val; omega

/-- Entry (p, u) of point t's output block is entry (512 t + p, u) of the result array. -/
theorem block_out (t : Fin cfg0.N) (p u : Fin 512) :
    ((cfg0.win 6).blk t).view.emb (ix2 p u) = (ix2 (row t p) u : S8192x512.Idx) := by
  funext a; apply Fin.ext
  obtain ⟨-, -, -, -, -, -, -, -, -, -, -, -, e0, e1⟩ := block_indices t
  match a with
  | ⟨0, _⟩ => show win0_6.index t (0 : Fin 2) * 512 + 1 * p.val = 512 * t.val + p.val; omega
  | ⟨1, _⟩ => show win0_6.index t (1 : Fin 2) * 512 + 1 * u.val = u.val; omega

/-! ## A point's products are the whole products' rows -/

/-- A product of block rows with a band of a fused matrix is the product of the array's rows with that part. -/
theorem product_rows (X : Mat 8192 512) (x : Mat 512 512) (Wf : Mat 512 1536) (W : Mat 512 512) (r : Fin 8192) (p : Fin 512)
    (j : Fin 1536) (u : Fin 512) (hx : ∀ k, x (ix2 p k) = X (ix2 r k)) (hW : ∀ k, Wf (ix2 k j) = W (ix2 k u)) :
    rowsTimes x Wf p j = rowsTimes X W r u := by
  unfold rowsTimes
  exact Finset.sum_congr rfl fun k _ => by rw [hx k, hW k]

/-! ## What a point writes back -/

/-- Point t writes back block t of the result. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after6]
  unfold outBlock
  rw [View.canon_unit_zero zero_offsets]
  simp only [View.ld_unit_zero (S := S512x512) zero_offsets, View.ld_unit_zero (S := S512x1) zero_offsets,
    View.ld_unit_zero (S := S512x1536) zero_offsets, View.ld_unit_zero (S := S1x1536) zero_offsets]
  funext j
  obtain ⟨p, u, rfl⟩ : ∃ (p : Fin 512) (u : Fin 512), j = ix2 p u := ⟨j 0, j 1, eq_ix2 j⟩
  refine (stored_apply (iblk m c 0 t) (iblk m c 1 t) (iblk m c 2 t) (iblk m c 3 t) (iblk m c 4 t) (iblk m c 5 t) p u).trans ?_
  show _ = result m c (((cfg0.win 6).blk t).view.emb (ix2 p u))
  rw [block_out t p u]
  unfold result newState
  rw [product_rows (m ((c : Thread nD τ).loc main_arg0)) (iblk m c 0 t) (iblk m c 3 t) (m ((c : Thread nD τ).loc main_arg3)) (row t p) p _ u
        (fun k => block_x m c t p k) (fun k => (block_wx m c t k _).trans (fusedX_first m c k u)),
      product_rows (m ((c : Thread nD τ).loc main_arg0)) (iblk m c 0 t) (iblk m c 3 t) (m ((c : Thread nD τ).loc main_arg6)) (row t p) p _ u
        (fun k => block_x m c t p k) (fun k => (block_wx m c t k _).trans (fusedX_second m c k u)),
      product_rows (m ((c : Thread nD τ).loc main_arg0)) (iblk m c 0 t) (iblk m c 3 t) (m ((c : Thread nD τ).loc main_arg9)) (row t p) p _ u
        (fun k => block_x m c t p k) (fun k => (block_wx m c t k _).trans (fusedX_third m c k u)),
      product_rows (m ((c : Thread nD τ).loc main_arg1)) (iblk m c 1 t) (iblk m c 4 t) (m ((c : Thread nD τ).loc main_arg5)) (row t p) p _ u
        (fun k => block_h m c t p k) (fun k => (block_wh m c t k _).trans (fusedH_first m c k u)),
      product_rows (m ((c : Thread nD τ).loc main_arg1)) (iblk m c 1 t) (iblk m c 4 t) (m ((c : Thread nD τ).loc main_arg8)) (row t p) p _ u
        (fun k => block_h m c t p k) (fun k => (block_wh m c t k _).trans (fusedH_second m c k u)),
      product_rows (m ((c : Thread nD τ).loc main_arg1)) (iblk m c 1 t) (iblk m c 4 t) (m ((c : Thread nD τ).loc main_arg11)) (row t p) p _ u
        (fun k => block_h m c t p k) (fun k => (block_wh m c t k _).trans (fusedH_third m c k u)),
      (block_b m c t _).trans (fusedB_first m c u), (block_b m c t _).trans (fusedB_second m c u),
      (block_b m c t _).trans (fusedB_third m c u), block_a m c t p, block_h m c t p u]

/-! ## The sixteen blocks cover the array -/

theorem mem_block (t : Fin cfg0.N) (i : S8192x512.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v6).slice (win0_6.rect t)).set ↔ _
  rw [View.set_slice_whole, Rect.mem_set_unit]
  exact Iff.rfl

/-- Row r of the result lies in the block of point r / 512. -/
theorem covered (i : S8192x512.Idx) : ∃ t : Fin cfg0.N, (cfg0.win 6).flush t = true ∧ i ∈ ((cfg0.win 6).blk t).view.set := by
  have hi0 : (i 0).val < 8192 := (i 0).isLt
  have hi1 : (i 1).val < 512 := (i 1).isLt
  have hN : cfg0.N = 16 := N_0
  let t : Fin cfg0.N := ⟨(i 0).val / 512, by rw [hN]; omega⟩
  have ht : t.val = (i 0).val / 512 := rfl
  obtain ⟨-, -, -, -, -, -, -, -, -, -, -, -, e0, e1⟩ := block_indices t
  refine ⟨t, flush0_6 t, ?_⟩
  rw [mem_block]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 512 ≤ (i 1).val ∧ (i 1).val < win0_6.index t (1 : Fin 2) * 512 + 512; omega

/-- The result array after the run. -/
theorem final (c : Dev nD) : (dats m 0 c).arrAt 6 cfg0.N = result m c :=
  (dats m 0 c).arrAt_eq_of_cover 6 (result m c) (fun t _ => flushed_eq m c t) covered

/-! ## The run, read -/

/-- Every weakly fair execution of the idealized kernel terminates with the result array at `newState` of the
    arguments and the arguments unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨((h c).1 6).trans (final m c), kept m (dats m) (A_eq m) r h c⟩) (run_main m ρ)

end Cert.KernelIdeal.CellValue

end
-- ==== Proof.RefCell.lean ====
/-
  The reference computes the cell: its result array, read entry by entry through its 44 operations, is `newState` of
  its twelve arguments — each of its six matrix products the sum over the contracted coordinate, each bias vector read
  at the unit, the attention column at the row, and its sigmoid (a negation, an exponential, 1 + …, 1 / …) the cell's σ.
-/
import proofs.«177072_j69569880261404_2_alg».proof.Proof.Gen.ReferenceIdeal.Read
import proofs.«177072_j69569880261404_2_alg».proof.Proof.GatedCell

noncomputable section

namespace Cert.ReferenceIdeal.CellValue

open Cert.ReferenceIdeal Cert.ReferenceIdeal.Read Cert.GatedCell
open Idealize.ShloMosaic Idealize.ShloMosaic.ValueIdx

/-! ## Where each operation reads its operands, by coordinates -/

theorem lidx_v0 (i : S8192x512.Idx) (k : Fin 512) : lidx_main_v0 i k = ix2 (i 0) k :=
  funext fun a => Fin.ext (by match a with | ⟨0, _⟩ => rfl | ⟨1, _⟩ => rfl)
theorem ridx_v0 (i : S8192x512.Idx) (k : Fin 512) : ridx_main_v0 i k = ix2 k (i 1) :=
  funext fun a => Fin.ext (by match a with | ⟨0, _⟩ => rfl | ⟨1, _⟩ => rfl)
theorem lidx_v4 (i : S8192x512.Idx) (k : Fin 512) : lidx_main_v4 i k = ix2 (i 0) k :=
  funext fun a => Fin.ext (by match a with | ⟨0, _⟩ => rfl | ⟨1, _⟩ => rfl)
theorem ridx_v4 (i : S8192x512.Idx) (k : Fin 512) : ridx_main_v4 i k = ix2 k (i 1) :=
  funext fun a => Fin.ext (by match a with | ⟨0, _⟩ => rfl | ⟨1, _⟩ => rfl)
theorem lidx_v12 (i : S8192x512.Idx) (k : Fin 512) : lidx_main_v12 i k = ix2 (i 0) k :=
  funext fun a => Fin.ext (by match a with | ⟨0, _⟩ => rfl | ⟨1, _⟩ => rfl)
theorem ridx_v12 (i : S8192x512.Idx) (k : Fin 512) : ridx_main_v12 i k = ix2 k (i 1) :=
  funext fun a => Fin.ext (by match a with | ⟨0, _⟩ => rfl | ⟨1, _⟩ => rfl)
theorem lidx_v16 (i : S8192x512.Idx) (k : Fin 512) : lidx_main_v16 i k = ix2 (i 0) k :=
  funext fun a => Fin.ext (by match a with | ⟨0, _⟩ => rfl | ⟨1, _⟩ => rfl)
theorem ridx_v16 (i : S8192x512.Idx) (k : Fin 512) : ridx_main_v16 i k = ix2 k (i 1) :=
  funext fun a => Fin.ext (by match a with | ⟨0, _⟩ => rfl | ⟨1, _⟩ => rfl)
theorem lidx_v24 (i : S8192x512.Idx) (k : Fin 512) : lidx_main_v24 i k = ix2 (i 0) k :=
  funext fun a => Fin.ext (by match a with | ⟨0, _⟩ => rfl | ⟨1, _⟩ => rfl)
theorem ridx_v24 (i : S8192x512.Idx) (k : Fin 512) : ridx_main_v24 i k = ix2 k (i 1) :=
  funext fun a => Fin.ext (by match a with | ⟨0, _⟩ => rfl | ⟨1, _⟩ => rfl)
theorem lidx_v28 (i : S8192x512.Idx) (k : Fin 512) : lidx_main_v28 i k = ix2 (i 0) k :=
  funext fun a => Fin.ext (by match a with | ⟨0, _⟩ => rfl | ⟨1, _⟩ => rfl)
theorem ridx_v28 (i : S8192x512.Idx) (k : Fin 512) : ridx_main_v28 i k = ix2 k (i 1) :=
  funext fun a => Fin.ext (by match a with | ⟨0, _⟩ => rfl | ⟨1, _⟩ => rfl)
theorem bias_idx_v2 (i : S8192x512.Idx) : idx_main_v1 (idx_main_v2 i) = ix1 (i 1) :=
  funext fun a => Fin.ext (by match a with | ⟨0, _⟩ => rfl)
theorem bias_idx_v14 (i : S8192x512.Idx) : idx_main_v13 (idx_main_v14 i) = ix1 (i 1) :=
  funext fun a => Fin.ext (by match a with | ⟨0, _⟩ => rfl)
theorem bias_idx_v26 (i : S8192x512.Idx) : idx_main_v25 (idx_main_v26 i) = ix1 (i 1) :=
  funext fun a => Fin.ext (by match a with | ⟨0, _⟩ => rfl)
theorem score_idx (i : S8192x512.Idx) : idx_main_v32 i = ix2 (i 0) (0 : Fin 1) :=
  funext fun a => Fin.ext (by match a with | ⟨0, _⟩ => rfl | ⟨1, _⟩ => rfl)

/-! ## The reference's result is the cell -/

set_option maxHeartbeats 1000000 in
/-- Entry by entry the reference's last stage is `newState` of the arguments. -/
theorem result_eq (x0 x1 : (⟨S8192x512, .f32⟩ : BufTy).Contents (Elt Ideal)) (x2 : (⟨S8192x1, .f32⟩ : BufTy).Contents (Elt Ideal))
    (x3 : (⟨S512x512, .f32⟩ : BufTy).Contents (Elt Ideal)) (x4 : (⟨S512, .f32⟩ : BufTy).Contents (Elt Ideal))
    (x5 x6 : (⟨S512x512, .f32⟩ : BufTy).Contents (Elt Ideal)) (x7 : (⟨S512, .f32⟩ : BufTy).Contents (Elt Ideal))
    (x8 x9 : (⟨S512x512, .f32⟩ : BufTy).Contents (Elt Ideal)) (x10 : (⟨S512, .f32⟩ : BufTy).Contents (Elt Ideal))
    (x11 : (⟨S512x512, .f32⟩ : BufTy).Contents (Elt Ideal)) :
    val_main_v38 (F := Ideal) x0 x1 x2 x3 x4 x5 x6 x7 x8 x9 x10 x11 = newState x0 x1 x2 x3 x4 x5 x6 x7 x8 x9 x10 x11 := by
  funext i
  simp only [val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, val_main_cst_2_apply, val_main_cst_3_apply]
  simp only [lidx_v0, ridx_v0, lidx_v4, ridx_v4, lidx_v12, ridx_v12, lidx_v16, ridx_v16, lidx_v24, ridx_v24, lidx_v28, ridx_v28, bias_idx_v2, bias_idx_v14, bias_idx_v26, score_idx,
    Ideal.addf_def, Ideal.subf_def, Ideal.mulf_def, Ideal.hostDivf_def, Ideal.hostUnary_exp_def, Ideal.hostUnary_tanh_def,
    Ideal.hostNegf_def, Ideal.negf_def, Ideal.ofBits_def, logistic_spelt]
  rfl

end Cert.ReferenceIdeal.CellValue

end
-- ==== Proof.lean ====
/-
  The certificate of a gated recurrent cell with an attention-scaled update gate: the kernel and its jnp reference
  compute the same new hidden state over the extended reals.

  For x, h : [8192, 512], an attention column a : [8192, 1], six weight matrices [512, 512] and three biases [512]:
    reset = σ(x·Wxr + br + h·Whr), update = σ(x·Wxu + bu + h·Whu), candidate = tanh(x·Wxh + bh + reset ∘ (h·Whh)),
    new = (1 − a ∘ update) ∘ h + (a ∘ update) ∘ candidate.
  The reference computes the six products separately. The kernel first joins the three input-side matrices side by
  side into one [512, 1536] matrix, likewise the three hidden-side ones and the three biases, and on each of 16 blocks
  of 512 rows forms two wide products and cuts each into three bands of 512 columns. Entry by entry a band of a
  product with matrices joined side by side IS the product with the corresponding part — the same sum over the
  contracted coordinate, term by term — so no law of the extended reals beyond that identity of sums is used, and the
  precondition (finite inputs) is never opened. The kernel's one-operation sigmoid and the reference's
  1 / (1 + e^(−z)) denote one function at the ideal instance. Both sides are shown equal to ONE function of the twelve
  argument arrays (`Cert.GatedCell.newState`).

  The frames: each kernel program is six host operations and one pipelined call whose body loads six whole blocks
  and stores one; the reference is a straight line of 44 host operations.
-/
import proofs.«177072_j69569880261404_2_alg».proof.Defs
import proofs.«177072_j69569880261404_2_alg».proof.Proof.Gen.Kernel
import proofs.«177072_j69569880261404_2_alg».proof.Proof.Gen.KernelIdeal
import proofs.«177072_j69569880261404_2_alg».proof.Proof.Gen.ReferenceIdeal
import proofs.«177072_j69569880261404_2_alg».proof.Proof.Gen.Pre_finite_inputs
import proofs.«177072_j69569880261404_2_alg».proof.Proof.Gen.ReferenceIdeal.Run
import proofs.«177072_j69569880261404_2_alg».proof.Proof.Gen.ReferenceIdeal.Read
import proofs.«177072_j69569880261404_2_alg».proof.Proof.KernelRegion
import proofs.«177072_j69569880261404_2_alg».proof.Proof.KernelIdealRegion
import proofs.«177072_j69569880261404_2_alg».proof.Proof.KernelValue
import proofs.«177072_j69569880261404_2_alg».proof.Proof.RefCell
import Idealize.ShloMosaic.Adequacy
import Idealize.ShloMosaic.Init

noncomputable section

namespace Cert.Proof

open Idealize.ShloMosaic Idealize.ShloMosaic.TcCoe Idealize.SL.Sem

/-- The kernel as printed runs to the end and leaves its arguments unchanged. -/
theorem frame_kernel : Cert.frame_Kernel := fun m ρ _ => Cert.Kernel.Region.frame m ρ

/-- So does its idealization. -/
theorem frame_kernel_ideal : Cert.frame_KernelIdeal := fun m ρ _ => Cert.KernelIdeal.Region.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at `newState` of the arguments. -/
theorem algebraic : Cert.algebraic_KernelIdeal_ReferenceIdeal := by
  intro m ρ m' ρ' _ hagree
  refine ⟨fun c => Cert.KernelIdeal.CellValue.result m c, Cert.KernelIdeal.CellValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  refine (Cert.ReferenceIdeal.Read.val_main_v38_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))).trans ?_
  rw [Cert.ReferenceIdeal.CellValue.result_eq, e0, e1, e2, e3, e4, e5, e6, e7, e8, e9, e10, e11]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
